-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x64 .f32) (main_arg9 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S64x128 .f32) (main_arg7 : FVec F S64 .f32) (main_arg8 : FVec F S1x64 .f32) (main_arg9 : FVec F S1 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x800000 32) (main_arg2 : FVec F S256x128 .f32) (main_arg3 : FVec F S256 .f32) (main_arg4 : FVec F S128x256 .f32) (main_arg5 : FVec F S128 .f32) (main_arg6 : FVec F S64x128 .f32) (main_arg7 : FVec F S64 .f32) (main_arg8 : FVec F S1x64 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x256 : Shape := ⟨2, ![1, 256]⟩
abbrev S1x128 : Shape := ⟨2, ![1, 128]⟩
abbrev S1x1 : Shape := ⟨2, ![1, 1]⟩
abbrev S100000x1 : Shape := ⟨2, ![100000, 1]⟩
abbrev S2000x128 : Shape := ⟨2, ![2000, 128]⟩
abbrev S2000x1 : Shape := ⟨2, ![2000, 1]⟩
abbrev S2000x256 : Shape := ⟨2, ![2000, 256]⟩
abbrev S128x64 : Shape := ⟨2, ![128, 64]⟩
abbrev S2000x64 : Shape := ⟨2, ![2000, 64]⟩
abbrev S64x1 : Shape := ⟨2, ![64, 1]⟩

abbrev nBuf : Space → Nat
  | .hbm => 68
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S100000, .i32⟩
  | .hbm, ⟨11, _⟩ => ⟨S1x800000, .i32⟩
  | .hbm, ⟨12, _⟩ => ⟨S800000, .i32⟩
  | .hbm, ⟨13, _⟩ => ⟨S900000, .i32⟩
  | .hbm, ⟨14, _⟩ => ⟨S1x800000, .i32⟩
  | .hbm, ⟨15, _⟩ => ⟨S800000, .i32⟩
  | .hbm, ⟨16, _⟩ => ⟨S900000, .i32⟩
  | .hbm, ⟨17, _⟩ => ⟨S_, .f32⟩
  | .hbm, ⟨18, _⟩ => ⟨S900000, .f32⟩
  | .hbm, ⟨19, _⟩ => ⟨S_, .f32⟩
  | .hbm, ⟨20, _⟩ => ⟨S100000, .f32⟩
  | .hbm, ⟨21, _⟩ => ⟨S900000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S900000, .i32⟩
  | .hbm, ⟨35, _⟩ => ⟨S900000, .i1⟩
  | .hbm, ⟨36, _⟩ => ⟨S_, .i32⟩
  | .hbm, ⟨37, _⟩ => ⟨S900000, .i32⟩
  | .hbm, ⟨38, _⟩ => ⟨S900000, .i32⟩
  | .hbm, ⟨39, _⟩ => ⟨S900000, .i32⟩
  | .hbm, ⟨40, _⟩ => ⟨S900000x1, .i32⟩
  | .hbm, ⟨41, _⟩ => ⟨S900000, .f32⟩
  | .hbm, ⟨42, _⟩ => ⟨S900000x1, .f32⟩
  | .hbm, ⟨43, _⟩ => ⟨S_, .i32⟩
  | .hbm, ⟨44, _⟩ => ⟨S900000, .i32⟩
  | .hbm, ⟨45, _⟩ => ⟨S900000, .i1⟩
  | .hbm, ⟨46, _⟩ => ⟨S_, .i32⟩
  | .hbm, ⟨47, _⟩ => ⟨S900000, .i32⟩
  | .hbm, ⟨48, _⟩ => ⟨S900000, .i32⟩
  | .hbm, ⟨49, _⟩ => ⟨S900000, .i32⟩
  | .hbm, ⟨50, _⟩ => ⟨S900000x1, .i32⟩
  | .hbm, ⟨51, _⟩ => ⟨S900000x128, .f32⟩
  | .hbm, ⟨52, _⟩ => ⟨S900000x128, .f32⟩
  | .hbm, ⟨53, _⟩ => ⟨S900000x128, .f32⟩
  | .hbm, ⟨54, _⟩ => ⟨S_, .f32⟩
  | .hbm, ⟨55, _⟩ => ⟨S100000x128, .f32⟩
  | .hbm, ⟨56, _⟩ => ⟨S900000x1, .i32⟩
  | .hbm, ⟨57, _⟩ => ⟨S100000x128, .f32⟩
  | .hbm, ⟨58, _⟩ => ⟨S_, .f32⟩
  | .hbm, ⟨59, _⟩ => ⟨S100000, .f32⟩
  | .hbm, ⟨60, _⟩ => ⟨S900000x1, .i32⟩
  | .hbm, ⟨61, _⟩ => ⟨S100000, .f32⟩
  | .hbm, ⟨62, _⟩ => ⟨S1x256, .f32⟩
  | .hbm, ⟨63, _⟩ => ⟨S1x128, .f32⟩
  | .hbm, ⟨64, _⟩ => ⟨S1x64, .f32⟩
  | .hbm, ⟨65, _⟩ => ⟨S1x1, .f32⟩
  | .hbm, ⟨66, _⟩ => ⟨S100000x1, .f32⟩
  | .hbm, ⟨67, _⟩ => ⟨S100000x1, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S256x128, .f32⟩
  | .local _ .vmem, ⟨5, _⟩ => ⟨S1x256, .f32⟩
  | .local _ .vmem, ⟨6, _⟩ => ⟨S128x256, .f32⟩
  | .local _ .vmem, ⟨7, _⟩ => ⟨S1x128, .f32⟩
  | .local _ .vmem, ⟨8, _⟩ => ⟨S64x128, .f32⟩
  | .local _ .vmem, ⟨9, _⟩ => ⟨S1x64, .f32⟩
  | .local _ .vmem, ⟨10, _⟩ => ⟨S1x64, .f32⟩
  | .local _ .vmem, ⟨11, _⟩ => ⟨S1x1, .f32⟩
  | .local _ .vmem, ⟨12, _⟩ => ⟨S2000x1, .f32⟩
  | .local _ .vmem, ⟨13, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S256_S1x256 : S256.ShapeCasts S1x256
  shapeCasts_S128_S1x128 : S128.ShapeCasts S1x128
  shapeCasts_S64_S1x64 : S64.ShapeCasts S1x64
  shapeCasts_S1_S1x1 : S1.ShapeCasts S1x1
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  transposes_S1x64_p1_0_S64x1 : S1x64.Transposes [1, 0] S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S2000x128_S128x64_S2000x64_1_0_0_1_n_n_wf : DotDims.WF S2000x128 S128x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x1.size a ≤ S100000x1.size a
  hwx0_10 : ∀ i : grid0.Coords, EltTy.bits .f32 = 32 ∨ (Rect.block (s := S100000x1) S2000x1.size (cc0_transform_10 i) (hinb0_10 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_v35) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v44) S2000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S100000x1 : Shape := ⟨2, ![100000, 1]⟩
abbrev S100000x256 : Shape := ⟨2, ![100000, 256]⟩
abbrev S1x256 : Shape := ⟨2, ![1, 256]⟩
abbrev S1x128 : Shape := ⟨2, ![1, 128]⟩
abbrev S128x64 : Shape := ⟨2, ![128, 64]⟩
abbrev S100000x64 : Shape := ⟨2, ![100000, 64]⟩
abbrev S64x1 : Shape := ⟨2, ![64, 1]⟩
abbrev S1x1 : Shape := ⟨2, ![1, 1]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S100000, .i32⟩
  | .hbm, ⟨11, _⟩ => ⟨S1x800000, .i32⟩
  | .hbm, ⟨12, _⟩ => ⟨S800000, .i32⟩
  | .hbm, ⟨13, _⟩ => ⟨S900000, .i32⟩
  | .hbm, ⟨14, _⟩ => ⟨S1x800000, .i32⟩
  | .hbm, ⟨15, _⟩ => ⟨S800000, .i32⟩
  | .hbm, ⟨16, _⟩ => ⟨S900000, .i32⟩
  | .hbm, ⟨17, _⟩ => ⟨S_, .f32⟩
  | .hbm, ⟨18, _⟩ => ⟨S900000, .f32⟩
  | .hbm, ⟨19, _⟩ => ⟨S_, .f32⟩
  | .hbm, ⟨20, _⟩ => ⟨S100000, .f32⟩
  | .hbm, ⟨21, _⟩ => ⟨S900000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S900000, .i32⟩
  | .hbm, ⟨35, _⟩ => ⟨S900000, .i1⟩
  | .hbm, ⟨36, _⟩ => ⟨S_, .i32⟩
  | .hbm, ⟨37, _⟩ => ⟨S900000, .i32⟩
  | .hbm, ⟨38, _⟩ => ⟨S900000, .i32⟩
  | .hbm, ⟨39, _⟩ => ⟨S900000, .i32⟩
  | .hbm, ⟨40, _⟩ => ⟨S900000x1, .i32⟩
  | .hbm, ⟨41, _⟩ => ⟨S900000, .f32⟩
  | .hbm, ⟨42, _⟩ => ⟨S900000x1, .f32⟩
  | .hbm, ⟨43, _⟩ => ⟨S_, .i32⟩
  | .hbm, ⟨44, _⟩ => ⟨S900000, .i32⟩
  | .hbm, ⟨45, _⟩ => ⟨S900000, .i1⟩
  | .hbm, ⟨46, _⟩ => ⟨S_, .i32⟩
  | .hbm, ⟨47, _⟩ => ⟨S900000, .i32⟩
  | .hbm, ⟨48, _⟩ => ⟨S900000, .i32⟩
  | .hbm, ⟨49, _⟩ => ⟨S900000, .i32⟩
  | .hbm, ⟨50, _⟩ => ⟨S900000x1, .i32⟩
  | .hbm, ⟨51, _⟩ => ⟨S900000x128, .f32⟩
  | .hbm, ⟨52, _⟩ => ⟨S900000x128, .f32⟩
  | .hbm, ⟨53, _⟩ => ⟨S900000x128, .f32⟩
  | .hbm, ⟨54, _⟩ => ⟨S_, .f32⟩
  | .hbm, ⟨55, _⟩ => ⟨S100000x128, .f32⟩
  | .hbm, ⟨56, _⟩ => ⟨S900000x1, .i32⟩
  | .hbm, ⟨57, _⟩ => ⟨S100000x128, .f32⟩
  | .hbm, ⟨58, _⟩ => ⟨S_, .f32⟩
  | .hbm, ⟨59, _⟩ => ⟨S100000, .f32⟩
  | .hbm, ⟨60, _⟩ => ⟨S900000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S128x256, .f32⟩
  | .hbm, ⟨69, _⟩ => ⟨S100000x256, .f32⟩
  | .hbm, ⟨70, _⟩ => ⟨S1x256, .f32⟩
  | .hbm, ⟨71, _⟩ => ⟨S100000x256, .f32⟩
  | .hbm, ⟨72, _⟩ => ⟨S100000x256, .f32⟩
  | .hbm, ⟨73, _⟩ => ⟨S_, .f32⟩
  | .hbm, ⟨74, _⟩ => ⟨S100000x256, .f32⟩
  | .hbm, ⟨75, _⟩ => ⟨S100000x256, .f32⟩
  | .hbm, ⟨76, _⟩ => ⟨S256x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S128x64, .f32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | .hbm, ⟨92, _⟩ => ⟨S64x1, .f32⟩
  | .hbm, ⟨93, _⟩ => ⟨S100000x1, .f32⟩
  | .hbm, ⟨94, _⟩ => ⟨S1x1, .f32⟩
  | .hbm, ⟨95, _⟩ => ⟨S100000x1, .f32⟩
  | .hbm, ⟨96, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call2_cst : Ref sig .tc := ⟨.hbm, 81, rfl⟩
abbrev main_call2_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call3_cst : Ref sig .tc := ⟨.hbm, 89, rfl⟩
abbrev main_call3_v0 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.LibPlainDot.lean ====
import Idealize.ShloMosaic.Lib.ValueIdx
import Idealize.ShloMosaic.Lib.Pipeline.Value
import Idealize.ShloMosaic.PureOps.Ideal.Laws

/-!
A plain matrix product `[M, K] × [K, N]` read at an index, on the extended reals: the kernel's `tpu.matmul` into a
zero accumulator and the host's `dot_general` are both `∑ k, x (p, k) · W (k, q)` at `(p, q)`, with the sum
over the literal `Fin K`. Stated for the dimension numbers `DotDims.plain M K N`, which every product of the two
programs has.
-/

noncomputable section

namespace Idealize.ShloMosaic.PlainDot

open Idealize.ShloMosaic Idealize.ShloMosaic.ValueIdx

variable {φ₁ φ₂ : FTy}

theorem lhs_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem rhs_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product, over the literal `Fin K`. -/
theorem contr_sum (M K N : Nat) (x : (⟨2, ![M, K]⟩ : Shape).Idx → EReal) (W : (⟨2, ![K, N]⟩ : Shape).Idx → EReal)
    (p : Fin M) (q : Fin N) :
    ∑ k : (DotDims.plain M K N).contr.Idx,
        x ((DotDims.plain M K N).lhsIdx (ix2 p q) k) * W ((DotDims.plain M K N).rhsIdx (ix2 p q) k)
      = ∑ k : Fin K, x (ix2 p k) * W (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact rhs_col M K N _ _)
  rw [el, er]

/-- A `tpu.matmul` into the zero accumulator, at `(p, q)`. -/
theorem matmul_zero_apply (M K N : Nat) (prec : Option ContractPrecision)
    (x : FVec Ideal ⟨2, ![M, K]⟩ φ₁) (W : FVec Ideal ⟨2, ![K, N]⟩ φ₂) (p : Fin M) (q : Fin N) :
    FloatOps.matmul (DotDims.plain M K N) prec x W (constant ⟨2, ![M, N]⟩ .f32 0x00000000#32) (ix2 p q)
      = ∑ k : Fin K, x (ix2 p k) * W (ix2 k q) := by
  rw [Ideal.matmul_constant_zero_apply]
  exact contr_sum M K N x W p q

/-- The host's `dot_general`, at `(p, q)`. -/
theorem dotGeneral_apply (M K N : Nat) (prec : Option ContractPrecision) (sched : HostSchedule)
    (x : FVec Ideal ⟨2, ![M, K]⟩ φ₁) (W : FVec Ideal ⟨2, ![K, N]⟩ φ₂) (p : Fin M) (q : Fin N) :
    FloatOps.dotGeneral (DotDims.plain M K N) prec sched x W (ix2 p q) = ∑ k : Fin K, x (ix2 p k) * W (ix2 k q) := by
  rw [Ideal.dotGeneral_apply]
  exact contr_sum M K N x W p q

end Idealize.ShloMosaic.PlainDot

end
-- ==== Proof.LibColumn.lean ====
import Idealize.ShloMosaic.Lib.ValueLayout

/-!
A column of per-row values read at an index: a vector `[a]` viewed as a one-column matrix `[a, 1]`, and a one-column
matrix `[a, 1]` repeated along its row to `[a, b]` — the two layout steps between a row reduction that keeps its
axis and the matrix it is then combined with. General in the extents.
-/

namespace Idealize.ShloMosaic.ValueIdx

open Idealize.ShloMosaic

variable {α : Type}

/-- An `[a]` vector cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.Mlp.lean ====
import Idealize.ShloMosaic.PureOps.Ideal
import Idealize.ShloMosaic.Lib.ValueIdx

/-!
The node head of the graph network, on the extended reals, one node (one row) at a time.

For a node with aggregated feature sums `srow : Fin 128 → EReal` and in-degree count `cnt`, the head first takes the
mean `srow k / max cnt 1`, then applies three dense layers with a rectifier, `x ↦ max (W x + b) 0`, of widths
`128 → 256 → 128 → 64`, and a last dense layer `64 → 1` without a rectifier. A dense layer is
`(W x + b) j = (∑ k, x k · W j k) + b j`: the weight matrix is stored output-major (`[out, in]`), as in both programs.

Both programs compute exactly this function of a row; they differ in how the rows are laid out (the kernel works on
blocks of 2000 rows, the reference on all 100000 at once) and in how the matrix products are spelt. Nothing here needs
the entries to be finite: the two sides are the same expression, term for term.
-/

noncomputable section

namespace Cert.Gcn

open Idealize.ShloMosaic Idealize.ShloMosaic.ValueIdx

/-- The f32 word of `1.0` at the ideal values (the floor of the degree count). -/
abbrev one : EReal := Ideal.ofBits .f32 0x3F800000#32

/-- The f32 word of `0.0` at the ideal values (the rectifier's threshold). -/
abbrev zero : EReal := Ideal.ofBits .f32 0x00000000#32

/-- A dense layer on one row: `(W x + b) j = (∑ k, x k · W j k) + b j`, the weights output-major. -/
def dense {K N : ℕ} (W : Fin N → Fin K → EReal) (b : Fin N → EReal) (x : Fin K → EReal) : Fin N → EReal :=
  fun j => (∑ k : Fin K, x k * W j k) + b j

/-- The rectifier, entry by entry. -/
def relu {N : ℕ} (z : Fin N → EReal) : Fin N → EReal := fun j => max (z j) zero

/-- The mean over incoming edges: the feature sums divided by the count, the count floored at one. -/
def mean (srow : Fin 128 → EReal) (cnt : EReal) : Fin 128 → EReal := fun k => Ideal.div (srow k) (max cnt one)

/-- The head's weights and biases, as functions of plain coordinates. -/
structure Params where
  Wc : Fin 256 → Fin 128 → EReal
  bc : Fin 256 → EReal
  W1 : Fin 128 → Fin 256 → EReal
  b1 : Fin 128 → EReal
  W2 : Fin 64 → Fin 128 → EReal
  b2 : Fin 64 → EReal
  W3 : Fin 1 → Fin 64 → EReal
  b3 : Fin 1 → EReal

/-- The first hidden layer of a row. -/
def hidden1 (P : Params) (srow : Fin 128 → EReal) (cnt : EReal) : Fin 256 → EReal :=
  relu (dense P.Wc P.bc (mean srow cnt))

/-- The second hidden layer of a row. -/
def hidden2 (P : Params) (srow : Fin 128 → EReal) (cnt : EReal) : Fin 128 → EReal :=
  relu (dense P.W1 P.b1 (hidden1 P srow cnt))

/-- The third hidden layer of a row. -/
def hidden3 (P : Params) (srow : Fin 128 → EReal) (cnt : EReal) : Fin 64 → EReal :=
  relu (dense P.W2 P.b2 (hidden2 P srow cnt))

/-- The head's output for one row: its single entry. -/
def headRow (P : Params) (srow : Fin 128 → EReal) (cnt : EReal) : Fin 1 → EReal :=
  dense P.W3 P.b3 (hidden3 P srow cnt)

/-- The parameters read off the argument arrays `Wc [256,128]`, `bc [256]`, `W1 [128,256]`, `b1 [128]`, `W2 [64,128]`,
    `b2 [64]`, `W3 [1,64]`, `b3 [1]`. -/
def paramsOfArgs (a2 : (⟨2, ![256, 128]⟩ : Shape).Idx → EReal) (a3 : (⟨1, ![256]⟩ : Shape).Idx → EReal)
    (a4 : (⟨2, ![128, 256]⟩ : Shape).Idx → EReal) (a5 : (⟨1, ![128]⟩ : Shape).Idx → EReal)
    (a6 : (⟨2, ![64, 128]⟩ : Shape).Idx → EReal) (a7 : (⟨1, ![64]⟩ : Shape).Idx → EReal)
    (a8 : (⟨2, ![1, 64]⟩ : Shape).Idx → EReal) (a9 : (⟨1, ![1]⟩ : Shape).Idx → EReal) : Params where
  Wc := fun j k => a2 (ix2 j k)
  bc := fun j => a3 (ix1 j)
  W1 := fun j k => a4 (ix2 j k)
  b1 := fun j => a5 (ix1 j)
  W2 := fun j k => a6 (ix2 j k)
  b2 := fun j => a7 (ix1 j)
  W3 := fun j k => a8 (ix2 j k)
  b3 := fun j => a9 (ix1 j)

/-- The whole result array `[100000, 1]`: row `r` holds the head of row `r` of the feature sums `s [100000, 128]` and
    of entry `r` of the counts `cnt [100000]`. -/
def head (P : Params) (s : (⟨2, ![100000, 128]⟩ : Shape).Idx → EReal) (cnt : (⟨1, ![100000]⟩ : Shape).Idx → EReal) :
    (⟨2, ![100000, 1]⟩ : Shape).Idx → EReal :=
  fun i => headRow P (fun k => s (ix2 (i 0 : Fin 100000) k)) (cnt (ix1 (i 0 : Fin 100000))) (i 1 : Fin 1)

theorem head_ix2 (P : Params) (s : (⟨2, ![100000, 128]⟩ : Shape).Idx → EReal) (cnt : (⟨1, ![100000]⟩ : Shape).Idx → EReal)
    (r : Fin 100000) (u : Fin 1) :
    head P s cnt (ix2 r u) = headRow P (fun k => s (ix2 r k)) (cnt (ix1 r)) u := rfl

end Cert.Gcn

end
-- ==== Proof.KernelLayer.lean ====
import Idealize.ShloMosaic.Lib.ValueLayout
import Idealize.ShloMosaic.Lib.Pipeline.Value
import Idealize.ShloMosaic.PureOps.Ideal.Laws
import proofs.«178483_j20547123544817_1_alg».proof.Proof.LibPlainDot
import proofs.«178483_j20547123544817_1_alg».proof.Proof.LibColumn
import proofs.«178483_j20547123544817_1_alg».proof.Proof.Mlp

/-!
The kernel's spelling of the head's steps, read at an index on the extended reals, general in the extents.

The kernel computes a dense layer on a block of `M` rows as a matrix product into a zero accumulator,
`x · Wᵀ` with the `[N, K]` weight matrix transposed to `[K, N]`, plus the bias row `[1, N]` repeated down the rows; the
operands pass through a narrower float format on the way, which changes nothing on the extended reals. At `(p, q)`
this is `(∑ k, x (p, k) · W (q, k)) + b (0, q)`: the dense layer of row `p`. The rectifier is a pointwise maximum with
the zero splat, and the mean is a pointwise quotient by the `[M, 1]` column of floored counts repeated along the rows.
-/

noncomputable section

namespace Cert.Gcn

open Idealize.ShloMosaic Idealize.ShloMosaic.ValueIdx

/-- A dense layer as the kernel spells it, at `(p, q)`, when row `p` of its input block is `f p`. -/
theorem kernel_dense_apply {M K N : ℕ} (D : DotDims ⟨2, ![M, K]⟩ ⟨2, ![K, N]⟩ ⟨2, ![M, N]⟩) (hD : D = DotDims.plain M K N)
    (H : FVec Ideal ⟨2, ![M, K]⟩ .f32) (W : FVec Ideal ⟨2, ![N, K]⟩ .f32) (brow : FVec Ideal ⟨2, ![1, N]⟩ .f32)
    (hlt : FTy.bits .bf16 < FTy.bits .f32)
    (htr : (⟨2, ![N, K]⟩ : Shape).Transposes [1, 0] ⟨2, ![K, N]⟩)
    (hsc : (⟨2, ![1, N]⟩ : Shape).ShapeCasts ⟨2, ![1, N]⟩)
    (hbc : (⟨2, ![1, N]⟩ : Shape).Broadcasts ⟨2, ![M, N]⟩)
    (f : Fin M → Fin K → EReal) (hH : ∀ p k, H (ix2 p k) = f p k) (p : Fin M) (q : Fin N) :
    addf (matmul D none (truncf .bf16 H hlt) (transpose ⟨2, ![K, N]⟩ [1, 0] (truncf .bf16 W hlt) htr)
        (constant (F := Ideal) ⟨2, ![M, N]⟩ .f32 0x00000000#32))
      (broadcastTo ⟨2, ![M, N]⟩ (shapeCast ⟨2, ![1, N]⟩ brow hsc) hbc) (ix2 p q)
    = dense (fun j k => W (ix2 j k)) (fun j => brow (ix2 (0 : Fin 1) j)) (f p) q := by
  subst hD
  rw [addf_apply, broadcastTo_1b_ab_apply, shapeCast_self]
  unfold dense
  refine congrArg (· + brow (ix2 (0 : Fin 1) q)) ?_
  refine (PlainDot.matmul_zero_apply M K N none _ _ p q).trans ?_
  refine Finset.sum_congr rfl fun k _ => ?_
  rw [truncf_apply, transpose_ix2_apply, truncf_apply, hH]

/-- A dense layer followed by the rectifier, as the kernel spells it, at `(p, q)`. -/
theorem kernel_hidden_apply {M K N : ℕ} (D : DotDims ⟨2, ![M, K]⟩ ⟨2, ![K, N]⟩ ⟨2, ![M, N]⟩) (hD : D = DotDims.plain M K N)
    (H : FVec Ideal ⟨2, ![M, K]⟩ .f32) (W : FVec Ideal ⟨2, ![N, K]⟩ .f32) (brow : FVec Ideal ⟨2, ![1, N]⟩ .f32)
    (hlt : FTy.bits .bf16 < FTy.bits .f32)
    (htr : (⟨2, ![N, K]⟩ : Shape).Transposes [1, 0] ⟨2, ![K, N]⟩)
    (hsc : (⟨2, ![1, N]⟩ : Shape).ShapeCasts ⟨2, ![1, N]⟩)
    (hbc : (⟨2, ![1, N]⟩ : Shape).Broadcasts ⟨2, ![M, N]⟩)
    (f : Fin M → Fin K → EReal) (hH : ∀ p k, H (ix2 p k) = f p k) (p : Fin M) (q : Fin N) :
    maximumf (addf (matmul D none (truncf .bf16 H hlt) (transpose ⟨2, ![K, N]⟩ [1, 0] (truncf .bf16 W hlt) htr)
          (constant (F := Ideal) ⟨2, ![M, N]⟩ .f32 0x00000000#32))
        (broadcastTo ⟨2, ![M, N]⟩ (shapeCast ⟨2, ![1, N]⟩ brow hsc) hbc))
      (broadcast ⟨2, ![M, N]⟩ (Scalar.ofBits (F := Ideal) .f32 0x00000000#32)) (ix2 p q)
    = relu (dense (fun j k => W (ix2 j k)) (fun j => brow (ix2 (0 : Fin 1) j)) (f p)) q := by
  rw [maximumf_apply, kernel_dense_apply D hD H W brow hlt htr hsc hbc f hH p q]
  rfl

/-- The mean as the kernel spells it, at `(p, k)`: the block of sums over the column of counts floored at one. -/
theorem kernel_mean_apply {M : ℕ} (x0 : FVec Ideal ⟨2, ![M, 128]⟩ .f32) (x1 : FVec Ideal ⟨2, ![M, 1]⟩ .f32)
    (h0 : (⟨2, ![M, 128]⟩ : Shape).ShapeCasts ⟨2, ![M, 128]⟩) (h1 : (⟨2, ![M, 1]⟩ : Shape).ShapeCasts ⟨2, ![M, 1]⟩)
    (hb : (⟨2, ![M, 1]⟩ : Shape).Broadcasts ⟨2, ![M, 128]⟩) (p : Fin M) (k : Fin 128) :
    divf (shapeCast ⟨2, ![M, 128]⟩ x0 h0)
        (broadcastTo ⟨2, ![M, 128]⟩
          (maximumf (shapeCast ⟨2, ![M, 1]⟩ x1 h1) (broadcast ⟨2, ![M, 1]⟩ (Scalar.ofBits (F := Ideal) .f32 0x3F800000#32))) hb)
        (ix2 p k)
    = mean (fun k => x0 (ix2 p k)) (x1 (ix2 p (0 : Fin 1))) k := by
  rw [divf_apply, shapeCast_self, broadcastTo_a1_ab_apply, maximumf_apply, shapeCast_self]
  rfl

end Cert.Gcn

end
-- ==== Proof.KernelRow.lean ====
import proofs.«178483_j20547123544817_1_alg».proof.Proof.Gen.KernelIdeal.Skeleton
import proofs.«178483_j20547123544817_1_alg».proof.Proof.KernelLayer

/-!
The kernel body's stored value, read at an index of its block.

The body works on one block of 2000 rows: it loads the block of feature sums `x0 [2000, 128]`, the block of counts
`x1 [2000, 1]`, and every weight matrix and bias row whole (`x2 … x9`; the biases arrive as one-row matrices), and stores
one `[2000, 1]` block. Entry `(p, u)` of what it stores is the head of row `p` of the block: the mean, three dense layers with
a rectifier, and the last dense layer, each a matrix product into a zero accumulator plus a repeated bias row.
-/

noncomputable section

namespace Cert.Gcn

open Idealize.ShloMosaic Idealize.ShloMosaic.ValueIdx Cert.KernelIdeal Cert.KernelIdeal.Gen

/-- The head's parameters as the body finds them in its blocks: weight matrices whole, biases as one-row matrices. -/
def paramsOfBlocks (x2 : Vec Ideal S256x128 .f32) (x3 : Vec Ideal S1x256 .f32) (x4 : Vec Ideal S128x256 .f32)
    (x5 : Vec Ideal S1x128 .f32) (x6 : Vec Ideal S64x128 .f32) (x7 : Vec Ideal S1x64 .f32) (x8 : Vec Ideal S1x64 .f32)
    (x9 : Vec Ideal S1x1 .f32) : Params where
  Wc := fun j k => x2 (ix2 j k)
  bc := fun j => x3 (ix2 (0 : Fin 1) j)
  W1 := fun j k => x4 (ix2 j k)
  b1 := fun j => x5 (ix2 (0 : Fin 1) j)
  W2 := fun j k => x6 (ix2 j k)
  b2 := fun j => x7 (ix2 (0 : Fin 1) j)
  W3 := fun j k => x8 (ix2 j k)
  b3 := fun j => x9 (ix2 (0 : Fin 1) j)

/-- What the body stores, at `(p, u)`: the head of row `p` of the block of sums and of the block of counts. -/
theorem body_apply (x0 : Vec Ideal S2000x128 .f32) (x1 : Vec Ideal S2000x1 .f32) (x2 : Vec Ideal S256x128 .f32)
    (x3 : Vec Ideal S1x256 .f32) (x4 : Vec Ideal S128x256 .f32) (x5 : Vec Ideal S1x128 .f32) (x6 : Vec Ideal S64x128 .f32)
    (x7 : Vec Ideal S1x64 .f32) (x8 : Vec Ideal S1x64 .f32) (x9 : Vec Ideal S1x1 .f32) (p : Fin 2000) (u : Fin 1) :
    k0_pay1 (F := Ideal) (k0_pay2 x0 x1 x2 x3 x4 x5 x6) (k0_pay3 x7) x8 x9 (ix2 p u)
      = headRow (paramsOfBlocks x2 x3 x4 x5 x6 x7 x8 x9) (fun k => x0 (ix2 p k)) (x1 (ix2 p (0 : Fin 1))) u := by
  unfold k0_pay1 k0_pay2 k0_pay3 headRow hidden3 hidden2 hidden1 paramsOfBlocks
  exact kernel_dense_apply _ rfl _ x8 x9 _ _ _ _ _
    (fun p k => kernel_hidden_apply _ rfl _ x6 x7 _ _ _ _ _
      (fun p k => kernel_hidden_apply _ rfl _ x4 x5 _ _ _ _ _
        (fun p k => kernel_hidden_apply _ rfl _ x2 x3 _ _ _ _ _
          (fun p k => kernel_mean_apply x0 x1 _ _ _ p k) p k) p k) p k) p u

/-- The head of every row of a block: what a block of 2000 rows of sums and a block of 2000 counts give. -/
def blockHead (P : Params) (x0 : S2000x128.Idx → EReal) (x1 : S2000x1.Idx → EReal) : S2000x1.Idx → EReal :=
  fun y => headRow P (fun k => x0 (ix2 (y 0 : Fin 2000) k)) (x1 (ix2 (y 0 : Fin 2000) (0 : Fin 1))) (y 1 : Fin 1)

/-- What the body stores, as one function of its blocks: the head of every row of the block. -/
theorem body_eq (x0 : Vec Ideal S2000x128 .f32) (x1 : Vec Ideal S2000x1 .f32) (x2 : Vec Ideal S256x128 .f32)
    (x3 : Vec Ideal S1x256 .f32) (x4 : Vec Ideal S128x256 .f32) (x5 : Vec Ideal S1x128 .f32) (x6 : Vec Ideal S64x128 .f32)
    (x7 : Vec Ideal S1x64 .f32) (x8 : Vec Ideal S1x64 .f32) (x9 : Vec Ideal S1x1 .f32) :
    k0_pay1 (F := Ideal) (k0_pay2 x0 x1 x2 x3 x4 x5 x6) (k0_pay3 x7) x8 x9
      = blockHead (paramsOfBlocks x2 x3 x4 x5 x6 x7 x8 x9) x0 x1 := by
  funext y
  obtain ⟨p, u, rfl⟩ : ∃ (p : Fin 2000) (u : Fin 1), y = ix2 p u := ⟨y 0, y 1, eq_ix2 y⟩
  exact body_apply x0 x1 x2 x3 x4 x5 x6 x7 x8 x9 p u

end Cert.Gcn

end
-- ==== Proof.Prefix.lean ====
import proofs.«178483_j20547123544817_1_alg».proof.Proof.Gen.KernelIdeal.Frame
import proofs.«178483_j20547123544817_1_alg».proof.Proof.RefRead
import Idealize.ShloMosaic.Lib.StableHlo.Run

/-!
What the kernel's region finds in its operand arrays.

Before the region the kernel's program runs the same message passing as the reference, operation for operation: the
self loops appended to the edge list, the out-degrees by a scatter-add of ones, their reciprocals (zero where the degree
is zero) gathered per edge, the source rows gathered and scaled, and the two scatter-adds over the target nodes that
give the feature sums `s [100000, 128]` and the in-degree counts `cnt [100000]`. These two arrays are therefore the
reference's own stages of the same arguments. Nothing about what they hold is used, only that the two programs spell
them identically; the scatter-adds and gathers are never opened.

The chain of operations is walked once. A *step* says that a buffer holds its operation applied to the buffers it
reads; the *stage* then replaces those buffers by the reference's stages already identified. The region's other operands are layout changes: the counts
as a column `[100000, 1]`, each bias vector as a one-row matrix.
-/

noncomputable section

namespace Cert.Gcn.Prefix

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- Opens the region-entry contents of one buffer into the host operations' composed term of the launch contents. -/
local macro "host_term" : tactic =>
  `(tactic| (dsimp only [Gen.V]
             simp only [Gen.hostOps0, Gen.hostOps0_1, Gen.hostOps0_2, List.flatten_cons, List.flatten_nil, List.append_nil, List.cons_append, List.nil_append]
             simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']))

/-- The same, in a hypothesis. -/
local macro "host_term_at" h:ident : tactic =>
  `(tactic| (dsimp only [Gen.V] at $h:ident
             simp only [Gen.hostOps0, Gen.hostOps0_1, Gen.hostOps0_2, List.flatten_cons, List.flatten_nil, List.append_nil, List.cons_append, List.nil_append] at $h:ident
             simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at $h:ident))

set_option maxHeartbeats 4000000 in
/-- The out-degrees: a scatter-add of ones over the source nodes. -/
theorem st_v10 (c : Dev nD) : (V m c main_v10 : (⟨S100000, .f32⟩ : BufTy).Contents (Elt Ideal)) = Cert.ReferenceIdeal.ReadP.val_main_v10 (F := Ideal) (m ((c : Thread nD τ).loc main_arg1)) := by
  host_term
  rfl

set_option maxHeartbeats 4000000 in
theorem step_v12 (c : Dev nD) :
    (V m c main_v12 : (⟨S100000, .i1⟩ : BufTy).Contents (Elt Ideal))
      = cmpf .ogt (V m c main_v10 : (⟨S100000, .f32⟩ : BufTy).Contents (Elt Ideal))
          (broadcastInDim S100000 ![] bcast_S_S100000 (constant (F := Ideal) S_ .f32 0x00000000#32)) := by
  host_term <;> rfl

/-- Where the out-degree is positive. -/
theorem st_v12 (c : Dev nD) : (V m c main_v12 : (⟨S100000, .i1⟩ : BufTy).Contents (Elt Ideal)) = Cert.ReferenceIdeal.ReadP.val_main_v12 (F := Ideal) (m ((c : Thread nD τ).loc main_arg1)) := by
  rw [step_v12, st_v10]
  rfl

set_option maxHeartbeats 4000000 in
theorem step_v14 (c : Dev nD) :
    (V m c main_v14 : (⟨S100000, .f32⟩ : BufTy).Contents (Elt Ideal))
      = Host.divf (broadcastInDim S100000 ![] bcast_S_S100000 (constant (F := Ideal) S_ .f32 0x3F800000#32))
          (V m c main_v10 : (⟨S100000, .f32⟩ : BufTy).Contents (Elt Ideal)) := by
  host_term <;> rfl

/-- The reciprocal out-degrees. -/
theorem st_v14 (c : Dev nD) : (V m c main_v14 : (⟨S100000, .f32⟩ : BufTy).Contents (Elt Ideal)) = Cert.ReferenceIdeal.ReadP.val_main_v14 (F := Ideal) (m ((c : Thread nD τ).loc main_arg1)) := by
  rw [step_v14, st_v10]
  rfl

set_option maxHeartbeats 4000000 in
theorem step_v15 (c : Dev nD) :
    (V m c main_v15 : (⟨S100000, .f32⟩ : BufTy).Contents (Elt Ideal))
      = select (V m c main_v12 : (⟨S100000, .i1⟩ : BufTy).Contents (Elt Ideal)) (V m c main_v14 : (⟨S100000, .f32⟩ : BufTy).Contents (Elt Ideal))
          (broadcastInDim S100000 ![] bcast_S_S100000 (constant (F := Ideal) S_ .f32 0x00000000#32)) := by
  obtain ⟨X12, h12⟩ : ∃ X : (⟨S100000, .i1⟩ : BufTy).Contents (Elt Ideal), (V m c main_v12 : (⟨S100000, .i1⟩ : BufTy).Contents (Elt Ideal)) = X := ⟨_, rfl⟩
  obtain ⟨X14, h14⟩ : ∃ X : (⟨S100000, .f32⟩ : BufTy).Contents (Elt Ideal), (V m c main_v14 : (⟨S100000, .f32⟩ : BufTy).Contents (Elt Ideal)) = X := ⟨_, rfl⟩
  rw [h12, h14]
  host_term_at h12
  host_term_at h14
  host_term
  rw [h12, h14]
  first | done | rfl

/-- The reciprocal out-degrees, zero where the degree is zero. -/
theorem st_v15 (c : Dev nD) : (V m c main_v15 : (⟨S100000, .f32⟩ : BufTy).Contents (Elt Ideal)) = Cert.ReferenceIdeal.ReadP.val_main_v15 (F := Ideal) (m ((c : Thread nD τ).loc main_arg1)) := by
  rw [step_v15, st_v12, st_v14]
  rfl

set_option maxHeartbeats 4000000 in
/-- The source node of every edge, negative indices wrapped. -/
theorem st_v20 (c : Dev nD) : (V m c main_v20 : (⟨S900000, .i32⟩ : BufTy).Contents (Elt Ideal)) = Cert.ReferenceIdeal.ReadP.val_main_v20 (F := Ideal) (m ((c : Thread nD τ).loc main_arg1)) := by
  host_term
  rfl

set_option maxHeartbeats 4000000 in
theorem step_v22 (c : Dev nD) :
    (V m c main_v22 : (⟨S900000, .f32⟩ : BufTy).Contents (Elt Ideal))
      = Host.gather gather_S100000_S900000x1_S900000_n_0_n_n_0_1_1 (V m c main_v15 : (⟨S100000, .f32⟩ : BufTy).Contents (Elt Ideal))
          (broadcastInDim S900000x1 ![0] bcast_S900000_S900000x1_0 (V m c main_v20 : (⟨S900000, .i32⟩ : BufTy).Contents (Elt Ideal))) := by
  obtain ⟨X15, h15⟩ : ∃ X : (⟨S100000, .f32⟩ : BufTy).Contents (Elt Ideal), (V m c main_v15 : (⟨S100000, .f32⟩ : BufTy).Contents (Elt Ideal)) = X := ⟨_, rfl⟩
  obtain ⟨X20, h20⟩ : ∃ X : (⟨S900000, .i32⟩ : BufTy).Contents (Elt Ideal), (V m c main_v20 : (⟨S900000, .i32⟩ : BufTy).Contents (Elt Ideal)) = X := ⟨_, rfl⟩
  rw [h15, h20]
  host_term_at h15
  host_term_at h20
  host_term
  rw [h15, h20]
  first | done | rfl

/-- The normalisation factor of every edge: its source's reciprocal out-degree. -/
theorem st_v22 (c : Dev nD) : (V m c main_v22 : (⟨S900000, .f32⟩ : BufTy).Contents (Elt Ideal)) = Cert.ReferenceIdeal.ReadP.val_main_v22 (F := Ideal) (m ((c : Thread nD τ).loc main_arg1)) := by
  rw [step_v22, st_v15, st_v20]
  rfl

set_option maxHeartbeats 4000000 in
/-- The source row of every edge. -/
theorem st_v30 (c : Dev nD) : (V m c main_v30 : (⟨S900000x128, .f32⟩ : BufTy).Contents (Elt Ideal)) = Cert.ReferenceIdeal.ReadP.val_main_v30 (F := Ideal) (m ((c : Thread nD τ).loc main_arg0)) (m ((c : Thread nD τ).loc main_arg1)) := by
  host_term
  rfl

set_option maxHeartbeats 4000000 in
theorem step_v32 (c : Dev nD) :
    (V m c main_v32 : (⟨S900000x128, .f32⟩ : BufTy).Contents (Elt Ideal))
      = (mulf (F := Ideal) (φ := .f32) (broadcastInDim S900000x128 ![0, 1] bcast_S900000x1_S900000x128_0_1
            (broadcastInDim S900000x1 ![0] bcast_S900000_S900000x1_0 (V m c main_v22 : (⟨S900000, .f32⟩ : BufTy).Contents (Elt Ideal))))
          (V m c main_v30 : (⟨S900000x128, .f32⟩ : BufTy).Contents (Elt Ideal)) : (⟨S900000x128, .f32⟩ : BufTy).Contents (Elt Ideal)) := by
  obtain ⟨X22, h22⟩ : ∃ X : (⟨S900000, .f32⟩ : BufTy).Contents (Elt Ideal), (V m c main_v22 : (⟨S900000, .f32⟩ : BufTy).Contents (Elt Ideal)) = X := ⟨_, rfl⟩
  obtain ⟨X30, h30⟩ : ∃ X : (⟨S900000x128, .f32⟩ : BufTy).Contents (Elt Ideal), (V m c main_v30 : (⟨S900000x128, .f32⟩ : BufTy).Contents (Elt Ideal)) = X := ⟨_, rfl⟩
  rw [h22, h30]
  host_term_at h22
  host_term_at h30
  host_term
  rw [h22, h30]
  first | done | rfl

/-- The message of every edge: its source row scaled by its factor. -/
theorem st_v32 (c : Dev nD) :
    (V m c main_v32 : (⟨S900000x128, .f32⟩ : BufTy).Contents (Elt Ideal)) = Cert.ReferenceIdeal.ReadP.val_main_v32 (F := Ideal) (m ((c : Thread nD τ).loc main_arg0)) (m ((c : Thread nD τ).loc main_arg1)) := by
  rw [step_v32, st_v22, st_v30]
  rfl

set_option maxHeartbeats 4000000 in
/-- The target node of every edge, as the scatter's index column. -/
theorem st_v34 (c : Dev nD) : (V m c main_v34 : (⟨S900000x1, .i32⟩ : BufTy).Contents (Elt Ideal)) = Cert.ReferenceIdeal.ReadP.val_main_v34 (F := Ideal) (m ((c : Thread nD τ).loc main_arg1)) := by
  host_term
  rfl

set_option maxHeartbeats 4000000 in
theorem step_v35 (c : Dev nD) :
    (V m c main_v35 : (⟨S100000x128, .f32⟩ : BufTy).Contents (Elt Ideal))
      = Host.scatterAdd scatter_S100000x128_S900000x1_S900000x128_1_0_0_1
          (broadcastInDim S100000x128 ![] bcast_S_S100000x128 (constant (F := Ideal) S_ .f32 0x00000000#32))
          (V m c main_v34 : (⟨S900000x1, .i32⟩ : BufTy).Contents (Elt Ideal)) (V m c main_v32 : (⟨S900000x128, .f32⟩ : BufTy).Contents (Elt Ideal)) := by
  obtain ⟨X34, h34⟩ : ∃ X : (⟨S900000x1, .i32⟩ : BufTy).Contents (Elt Ideal), (V m c main_v34 : (⟨S900000x1, .i32⟩ : BufTy).Contents (Elt Ideal)) = X := ⟨_, rfl⟩
  obtain ⟨X32, h32⟩ : ∃ X : (⟨S900000x128, .f32⟩ : BufTy).Contents (Elt Ideal), (V m c main_v32 : (⟨S900000x128, .f32⟩ : BufTy).Contents (Elt Ideal)) = X := ⟨_, rfl⟩
  rw [h34, h32]
  host_term_at h34
  host_term_at h32
  host_term
  rw [h34, h32]
  first | done | rfl

/-- The feature sums the region stages: the reference's stage of the same node features and edge list. -/
theorem V_sums (c : Dev nD) :
    (V m c main_v35 : S100000x128.Idx → EReal) = Cert.ReferenceIdeal.ReadP.val_main_v35 (F := Ideal) (m ((c : Thread nD τ).loc main_arg0)) (m ((c : Thread nD τ).loc main_arg1)) := by
  show (V m c main_v35 : (⟨S100000x128, .f32⟩ : BufTy).Contents (Elt Ideal)) = _
  rw [step_v35, st_v34, st_v32]
  rfl

set_option maxHeartbeats 4000000 in
/-- The counts the region stages, as a column: the reference's stage of the same edge list, viewed as `[100000, 1]`. -/
theorem V_counts (c : Dev nD) :
    (V m c main_v43 : S100000x1.Idx → EReal)
      = shapeCast S100000x1 (Cert.ReferenceIdeal.ReadP.val_main_v38 (F := Ideal) (m ((c : Thread nD τ).loc main_arg1))) shapeCasts_S100000_S100000x1 := by
  host_term
  rfl

set_option maxHeartbeats 4000000 in
/-- The first bias as the region stages it: the argument vector viewed as one row. -/
theorem V_bias0 (c : Dev nD) :
    (V m c main_v39 : S1x256.Idx → EReal)
      = shapeCast S1x256 (m ((c : Thread nD τ).loc main_arg3) : S256.Idx → EReal) shapeCasts_S256_S1x256 := by
  host_term
  rfl

set_option maxHeartbeats 4000000 in
/-- The second bias as the region stages it: the argument vector viewed as one row. -/
theorem V_bias1 (c : Dev nD) :
    (V m c main_v40 : S1x128.Idx → EReal)
      = shapeCast S1x128 (m ((c : Thread nD τ).loc main_arg5) : S128.Idx → EReal) shapeCasts_S128_S1x128 := by
  host_term
  rfl

set_option maxHeartbeats 4000000 in
/-- The third bias as the region stages it: the argument vector viewed as one row. -/
theorem V_bias2 (c : Dev nD) :
    (V m c main_v41 : S1x64.Idx → EReal)
      = shapeCast S1x64 (m ((c : Thread nD τ).loc main_arg7) : S64.Idx → EReal) shapeCasts_S64_S1x64 := by
  host_term
  rfl

set_option maxHeartbeats 4000000 in
/-- The last bias as the region stages it: the argument vector viewed as one row. -/
theorem V_bias3 (c : Dev nD) :
    (V m c main_v42 : S1x1.Idx → EReal)
      = shapeCast S1x1 (m ((c : Thread nD τ).loc main_arg9) : S1.Idx → EReal) shapeCasts_S1_S1x1 := by
  host_term
  rfl

end Cert.Gcn.Prefix

end
-- ==== Proof.KernelArray.lean ====
import proofs.«178483_j20547123544817_1_alg».proof.Proof.Gen.KernelIdeal.Value
import proofs.«178483_j20547123544817_1_alg».proof.Proof.KernelRow
import proofs.«178483_j20547123544817_1_alg».proof.Proof.Prefix
import Idealize.ShloMosaic.Lib.ValueLayout

/-!
From the kernel's blocks to its result array.

The grid has 50 points. At point `t` the pipeline stages rows `2000 t … 2000 t + 1999` of the feature sums and of the
column of counts, and every weight matrix and bias row whole; the body stores the head of those 2000 rows; the block is
written back to rows `2000 t … 2000 t + 1999` of the `[100000, 1]` result. So what point `t` writes back is block `t` of ONE
array — the head of every row of the sums and counts —, the 50 blocks tile the result, and the result array ends as that
array.
-/

noncomputable section

namespace Cert.Gcn.Array

open Cert.KernelIdeal Cert.KernelIdeal.Gen Idealize.ShloMosaic Idealize.ShloMosaic.ValueIdx Idealize.ShloMosaic.TcCoe
  Idealize.SL.Sem Cert.Gcn
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The head's parameters, read off the kernel's argument arrays. -/
def params (c : Dev nD) : Params :=
  paramsOfArgs ((m ((c : Thread nD τ).loc main_arg2)) : S256x128.Idx → EReal) ((m ((c : Thread nD τ).loc main_arg3)) : S256.Idx → EReal)
    ((m ((c : Thread nD τ).loc main_arg4)) : S128x256.Idx → EReal) ((m ((c : Thread nD τ).loc main_arg5)) : S128.Idx → EReal)
    ((m ((c : Thread nD τ).loc main_arg6)) : S64x128.Idx → EReal) ((m ((c : Thread nD τ).loc main_arg7)) : S64.Idx → EReal)
    ((m ((c : Thread nD τ).loc main_arg8)) : S1x64.Idx → EReal) ((m ((c : Thread nD τ).loc main_arg9)) : S1.Idx → EReal)

/-- The aggregated feature sums, as a function of the kernel's arguments (the reference's stage of them). -/
def sums (c : Dev nD) : S100000x128.Idx → EReal :=
  Cert.ReferenceIdeal.ReadP.val_main_v35 (F := Ideal) (m ((c : Thread nD τ).loc main_arg0)) (m ((c : Thread nD τ).loc main_arg1))

/-- The in-degree counts, as a function of the kernel's arguments (the reference's stage of them). -/
def counts (c : Dev nD) : S100000.Idx → EReal :=
  Cert.ReferenceIdeal.ReadP.val_main_v38 (F := Ideal) (m ((c : Thread nD τ).loc main_arg1))

/-- The kernel's result array as ONE function of its arguments: the head of every row. -/
def result (c : Dev nD) : S100000x1.Idx → EReal := head (params m c) (sums m c) (counts m c)

/-- The printed index maps, decided over the 50 grid points: the sums, the counts and the result move with the point
    along the rows; every weight matrix and bias row stays at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- Row `p` of block `t` of ANY `[100000, 128]` array is its row `2000 t + p`. -/
theorem blk0_read (X : S100000x128.Idx → EReal) (t : Fin cfg0.N) (p : Fin 2000) (k : Fin 128) (r : Fin 100000)
    (hr : r.val = t.val * 2000 + p.val) :
    ((cfg0.win 0).blk t).view.read (Elt Ideal) X (ix2 p k) = X (ix2 r k) := by
  obtain ⟨e0a, e0b, e1a, e1b, e2a, e2b, e3a, e3b, e4a, e4b, e5a, e5b, e6a, e6b, e7a, e7b, e8a, e8b, e9a, e9b, e10a, e10b⟩ := idx_facts t
  rw [View.read_apply]
  refine congrArg X (funext fun a => Fin.ext ?_)
  match a with
  | ⟨0, _⟩ => show win0_0.index t (0 : Fin 2) * 2000 + 1 * p.val = r.val; rw [e0a, hr]; omega
  | ⟨1, _⟩ => show win0_0.index t (1 : Fin 2) * 128 + 1 * k.val = k.val; rw [e0b]; omega

/-- Entry `p` of block `t` of ANY `[100000, 1]` column is its entry `2000 t + p`. -/
theorem blk1_read (X : S100000x1.Idx → EReal) (t : Fin cfg0.N) (p : Fin 2000) (r : Fin 100000)
    (hr : r.val = t.val * 2000 + p.val) :
    ((cfg0.win 1).blk t).view.read (Elt Ideal) X (ix2 p (0 : Fin 1)) = X (ix2 r (0 : Fin 1)) := by
  obtain ⟨e0a, e0b, e1a, e1b, e2a, e2b, e3a, e3b, e4a, e4b, e5a, e5b, e6a, e6b, e7a, e7b, e8a, e8b, e9a, e9b, e10a, e10b⟩ := idx_facts t
  rw [View.read_apply]
  refine congrArg X (funext fun a => Fin.ext ?_)
  match a with
  | ⟨0, _⟩ => show win0_1.index t (0 : Fin 2) * 2000 + 1 * p.val = r.val; rw [e1a, hr]; omega
  | ⟨1, _⟩ => show win0_1.index t (1 : Fin 2) * 1 + 1 * 0 = 0; rw [e1b]

/-- Window 2's one block is the whole `[256, 128]` array, at every point. -/
theorem blk2_read (X : S256x128.Idx → EReal) (t : Fin cfg0.N) :
    ((cfg0.win 2).blk t).view.read (Elt Ideal) X = X := by
  obtain ⟨e0a, e0b, e1a, e1b, e2a, e2b, e3a, e3b, e4a, e4b, e5a, e5b, e6a, e6b, e7a, e7b, e8a, e8b, e9a, e9b, e10a, e10b⟩ := idx_facts t
  funext x
  rw [View.read_apply]
  refine congrArg X (funext fun a => Fin.ext ?_)
  match a with
  | ⟨0, _⟩ => show win0_2.index t (0 : Fin 2) * 256 + 1 * (x 0).val = (x 0).val; rw [e2a]; omega
  | ⟨1, _⟩ => show win0_2.index t (1 : Fin 2) * 128 + 1 * (x 1).val = (x 1).val; rw [e2b]; omega

/-- Window 4's one block is the whole `[128, 256]` array, at every point. -/
theorem blk4_read (X : S128x256.Idx → EReal) (t : Fin cfg0.N) :
    ((cfg0.win 4).blk t).view.read (Elt Ideal) X = X := by
  obtain ⟨e0a, e0b, e1a, e1b, e2a, e2b, e3a, e3b, e4a, e4b, e5a, e5b, e6a, e6b, e7a, e7b, e8a, e8b, e9a, e9b, e10a, e10b⟩ := idx_facts t
  funext x
  rw [View.read_apply]
  refine congrArg X (funext fun a => Fin.ext ?_)
  match a with
  | ⟨0, _⟩ => show win0_4.index t (0 : Fin 2) * 128 + 1 * (x 0).val = (x 0).val; rw [e4a]; omega
  | ⟨1, _⟩ => show win0_4.index t (1 : Fin 2) * 256 + 1 * (x 1).val = (x 1).val; rw [e4b]; omega

/-- Window 6's one block is the whole `[64, 128]` array, at every point. -/
theorem blk6_read (X : S64x128.Idx → EReal) (t : Fin cfg0.N) :
    ((cfg0.win 6).blk t).view.read (Elt Ideal) X = X := by
  obtain ⟨e0a, e0b, e1a, e1b, e2a, e2b, e3a, e3b, e4a, e4b, e5a, e5b, e6a, e6b, e7a, e7b, e8a, e8b, e9a, e9b, e10a, e10b⟩ := idx_facts t
  funext x
  rw [View.read_apply]
  refine congrArg X (funext fun a => Fin.ext ?_)
  match a with
  | ⟨0, _⟩ => show win0_6.index t (0 : Fin 2) * 64 + 1 * (x 0).val = (x 0).val; rw [e6a]; omega
  | ⟨1, _⟩ => show win0_6.index t (1 : Fin 2) * 128 + 1 * (x 1).val = (x 1).val; rw [e6b]; omega

/-- Window 8's one block is the whole `[1, 64]` array, at every point. -/
theorem blk8_read (X : S1x64.Idx → EReal) (t : Fin cfg0.N) :
    ((cfg0.win 8).blk t).view.read (Elt Ideal) X = X := by
  obtain ⟨e0a, e0b, e1a, e1b, e2a, e2b, e3a, e3b, e4a, e4b, e5a, e5b, e6a, e6b, e7a, e7b, e8a, e8b, e9a, e9b, e10a, e10b⟩ := idx_facts t
  funext x
  rw [View.read_apply]
  refine congrArg X (funext fun a => Fin.ext ?_)
  match a with
  | ⟨0, _⟩ => show win0_8.index t (0 : Fin 2) * 1 + 1 * (x 0).val = (x 0).val; rw [e8a]; omega
  | ⟨1, _⟩ => show win0_8.index t (1 : Fin 2) * 64 + 1 * (x 1).val = (x 1).val; rw [e8b]; omega

/-- Window 3's one block is the whole `[1, 256]` array, at every point. -/
theorem blk3_read (X : S1x256.Idx → EReal) (t : Fin cfg0.N) :
    ((cfg0.win 3).blk t).view.read (Elt Ideal) X = X := by
  obtain ⟨e0a, e0b, e1a, e1b, e2a, e2b, e3a, e3b, e4a, e4b, e5a, e5b, e6a, e6b, e7a, e7b, e8a, e8b, e9a, e9b, e10a, e10b⟩ := idx_facts t
  funext x
  rw [View.read_apply]
  refine congrArg X (funext fun a => Fin.ext ?_)
  match a with
  | ⟨0, _⟩ => show win0_3.index t (0 : Fin 2) * 1 + 1 * (x 0).val = (x 0).val; rw [e3a]; omega
  | ⟨1, _⟩ => show win0_3.index t (1 : Fin 2) * 256 + 1 * (x 1).val = (x 1).val; rw [e3b]; omega

/-- Window 5's one block is the whole `[1, 128]` array, at every point. -/
theorem blk5_read (X : S1x128.Idx → EReal) (t : Fin cfg0.N) :
    ((cfg0.win 5).blk t).view.read (Elt Ideal) X = X := by
  obtain ⟨e0a, e0b, e1a, e1b, e2a, e2b, e3a, e3b, e4a, e4b, e5a, e5b, e6a, e6b, e7a, e7b, e8a, e8b, e9a, e9b, e10a, e10b⟩ := idx_facts t
  funext x
  rw [View.read_apply]
  refine congrArg X (funext fun a => Fin.ext ?_)
  match a with
  | ⟨0, _⟩ => show win0_5.index t (0 : Fin 2) * 1 + 1 * (x 0).val = (x 0).val; rw [e5a]; omega
  | ⟨1, _⟩ => show win0_5.index t (1 : Fin 2) * 128 + 1 * (x 1).val = (x 1).val; rw [e5b]; omega

/-- Window 7's one block is the whole `[1, 64]` array, at every point. -/
theorem blk7_read (X : S1x64.Idx → EReal) (t : Fin cfg0.N) :
    ((cfg0.win 7).blk t).view.read (Elt Ideal) X = X := by
  obtain ⟨e0a, e0b, e1a, e1b, e2a, e2b, e3a, e3b, e4a, e4b, e5a, e5b, e6a, e6b, e7a, e7b, e8a, e8b, e9a, e9b, e10a, e10b⟩ := idx_facts t
  funext x
  rw [View.read_apply]
  refine congrArg X (funext fun a => Fin.ext ?_)
  match a with
  | ⟨0, _⟩ => show win0_7.index t (0 : Fin 2) * 1 + 1 * (x 0).val = (x 0).val; rw [e7a]; omega
  | ⟨1, _⟩ => show win0_7.index t (1 : Fin 2) * 64 + 1 * (x 1).val = (x 1).val; rw [e7b]; omega

/-- Window 9's one block is the whole `[1, 1]` array, at every point. -/
theorem blk9_read (X : S1x1.Idx → EReal) (t : Fin cfg0.N) :
    ((cfg0.win 9).blk t).view.read (Elt Ideal) X = X := by
  obtain ⟨e0a, e0b, e1a, e1b, e2a, e2b, e3a, e3b, e4a, e4b, e5a, e5b, e6a, e6b, e7a, e7b, e8a, e8b, e9a, e9b, e10a, e10b⟩ := idx_facts t
  funext x
  rw [View.read_apply]
  refine congrArg X (funext fun a => Fin.ext ?_)
  match a with
  | ⟨0, _⟩ => show win0_9.index t (0 : Fin 2) * 1 + 1 * (x 0).val = (x 0).val; rw [e9a]; omega
  | ⟨1, _⟩ => show win0_9.index t (1 : Fin 2) * 1 + 1 * (x 1).val = (x 1).val; rw [e9b]; omega

/-- The counts as the region stages them: a column `[100000, 1]`. -/
def column (c : Dev nD) : S100000x1.Idx → EReal := shapeCast S100000x1 (counts m c) shapeCasts_S100000_S100000x1

/-- The block of sums at point `t`, as a function: block `t` of the sums. -/
theorem iblk0_eq (c : Dev nD) (t : Fin cfg0.N) :
    (iblk m c 0 t : Vec Ideal S2000x128 .f32) = ((cfg0.win 0).blk t).view.read (Elt Ideal) (sums m c) := by
  have hV : V m c (Pipeline.arrRef spec0 0) = sums m c := Prefix.V_sums m c
  unfold iblk
  rw [hV]

/-- The block of counts at point `t`, as a function: block `t` of the column of counts. -/
theorem iblk1_eq (c : Dev nD) (t : Fin cfg0.N) :
    (iblk m c 1 t : Vec Ideal S2000x1 .f32) = ((cfg0.win 1).blk t).view.read (Elt Ideal) (column m c) := by
  have hV : V m c (Pipeline.arrRef spec0 1) = column m c := Prefix.V_counts m c
  unfold iblk
  rw [hV]

/-- Window 2 stages the whole weight matrix at every point: its block is the argument array. -/
theorem iblk2_eq (c : Dev nD) (t : Fin cfg0.N) :
    (iblk m c 2 t : Vec Ideal S256x128 .f32) = ((m ((c : Thread nD τ).loc main_arg2)) : S256x128.Idx → EReal) := by
  have hV : V m c (Pipeline.arrRef spec0 2) = (m ((c : Thread nD τ).loc main_arg2)) := V_main_arg2 m c
  unfold iblk
  rw [hV]
  exact blk2_read ((m ((c : Thread nD τ).loc main_arg2)) : S256x128.Idx → EReal) t

/-- Window 4 stages the whole weight matrix at every point: its block is the argument array. -/
theorem iblk4_eq (c : Dev nD) (t : Fin cfg0.N) :
    (iblk m c 4 t : Vec Ideal S128x256 .f32) = ((m ((c : Thread nD τ).loc main_arg4)) : S128x256.Idx → EReal) := by
  have hV : V m c (Pipeline.arrRef spec0 4) = (m ((c : Thread nD τ).loc main_arg4)) := V_main_arg4 m c
  unfold iblk
  rw [hV]
  exact blk4_read ((m ((c : Thread nD τ).loc main_arg4)) : S128x256.Idx → EReal) t

/-- Window 6 stages the whole weight matrix at every point: its block is the argument array. -/
theorem iblk6_eq (c : Dev nD) (t : Fin cfg0.N) :
    (iblk m c 6 t : Vec Ideal S64x128 .f32) = ((m ((c : Thread nD τ).loc main_arg6)) : S64x128.Idx → EReal) := by
  have hV : V m c (Pipeline.arrRef spec0 6) = (m ((c : Thread nD τ).loc main_arg6)) := V_main_arg6 m c
  unfold iblk
  rw [hV]
  exact blk6_read ((m ((c : Thread nD τ).loc main_arg6)) : S64x128.Idx → EReal) t

/-- Window 8 stages the whole weight matrix at every point: its block is the argument array. -/
theorem iblk8_eq (c : Dev nD) (t : Fin cfg0.N) :
    (iblk m c 8 t : Vec Ideal S1x64 .f32) = ((m ((c : Thread nD τ).loc main_arg8)) : S1x64.Idx → EReal) := by
  have hV : V m c (Pipeline.arrRef spec0 8) = (m ((c : Thread nD τ).loc main_arg8)) := V_main_arg8 m c
  unfold iblk
  rw [hV]
  exact blk8_read ((m ((c : Thread nD τ).loc main_arg8)) : S1x64.Idx → EReal) t

/-- Window 3 stages the whole bias row at every point: its block is the bias vector viewed as one row. -/
theorem iblk3_eq (c : Dev nD) (t : Fin cfg0.N) :
    (iblk m c 3 t : Vec Ideal S1x256 .f32)
      = shapeCast S1x256 ((m ((c : Thread nD τ).loc main_arg3)) : S256.Idx → EReal) shapeCasts_S256_S1x256 := by
  have hV : V m c (Pipeline.arrRef spec0 3) = shapeCast S1x256 ((m ((c : Thread nD τ).loc main_arg3)) : S256.Idx → EReal) shapeCasts_S256_S1x256 :=
    Prefix.V_bias0 m c
  unfold iblk
  rw [hV]
  exact blk3_read (shapeCast S1x256 ((m ((c : Thread nD τ).loc main_arg3)) : S256.Idx → EReal) shapeCasts_S256_S1x256) t

/-- Window 5 stages the whole bias row at every point: its block is the bias vector viewed as one row. -/
theorem iblk5_eq (c : Dev nD) (t : Fin cfg0.N) :
    (iblk m c 5 t : Vec Ideal S1x128 .f32)
      = shapeCast S1x128 ((m ((c : Thread nD τ).loc main_arg5)) : S128.Idx → EReal) shapeCasts_S128_S1x128 := by
  have hV : V m c (Pipeline.arrRef spec0 5) = shapeCast S1x128 ((m ((c : Thread nD τ).loc main_arg5)) : S128.Idx → EReal) shapeCasts_S128_S1x128 :=
    Prefix.V_bias1 m c
  unfold iblk
  rw [hV]
  exact blk5_read (shapeCast S1x128 ((m ((c : Thread nD τ).loc main_arg5)) : S128.Idx → EReal) shapeCasts_S128_S1x128) t

/-- Window 7 stages the whole bias row at every point: its block is the bias vector viewed as one row. -/
theorem iblk7_eq (c : Dev nD) (t : Fin cfg0.N) :
    (iblk m c 7 t : Vec Ideal S1x64 .f32)
      = shapeCast S1x64 ((m ((c : Thread nD τ).loc main_arg7)) : S64.Idx → EReal) shapeCasts_S64_S1x64 := by
  have hV : V m c (Pipeline.arrRef spec0 7) = shapeCast S1x64 ((m ((c : Thread nD τ).loc main_arg7)) : S64.Idx → EReal) shapeCasts_S64_S1x64 :=
    Prefix.V_bias2 m c
  unfold iblk
  rw [hV]
  exact blk7_read (shapeCast S1x64 ((m ((c : Thread nD τ).loc main_arg7)) : S64.Idx → EReal) shapeCasts_S64_S1x64) t

/-- Window 9 stages the whole bias row at every point: its block is the bias vector viewed as one row. -/
theorem iblk9_eq (c : Dev nD) (t : Fin cfg0.N) :
    (iblk m c 9 t : Vec Ideal S1x1 .f32)
      = shapeCast S1x1 ((m ((c : Thread nD τ).loc main_arg9)) : S1.Idx → EReal) shapeCasts_S1_S1x1 := by
  have hV : V m c (Pipeline.arrRef spec0 9) = shapeCast S1x1 ((m ((c : Thread nD τ).loc main_arg9)) : S1.Idx → EReal) shapeCasts_S1_S1x1 :=
    Prefix.V_bias3 m c
  unfold iblk
  rw [hV]
  exact blk9_read (shapeCast S1x1 ((m ((c : Thread nD τ).loc main_arg9)) : S1.Idx → EReal) shapeCasts_S1_S1x1) t

/-- The parameters the body finds in its blocks are the head's parameters: a bias read through its one-row view is the
    bias vector's entry. -/
theorem params_eq (c : Dev nD) (t : Fin cfg0.N) :
    paramsOfBlocks (iblk m c 2 t) (iblk m c 3 t) (iblk m c 4 t) (iblk m c 5 t) (iblk m c 6 t) (iblk m c 7 t)
      (iblk m c 8 t) (iblk m c 9 t) = params m c := by
  rw [iblk2_eq, iblk3_eq, iblk4_eq, iblk5_eq, iblk6_eq, iblk7_eq, iblk8_eq, iblk9_eq]
  unfold paramsOfBlocks params paramsOfArgs
  simp only [shapeCast_a_1a_apply]

/-- The head of every row of ANY array of sums `S` and column of counts `Cl`. -/
def arrayHead (P : Params) (S : S100000x128.Idx → EReal) (Cl : S100000x1.Idx → EReal) : S100000x1.Idx → EReal :=
  fun i => headRow P (fun k => S (ix2 (i 0 : Fin 100000) k)) (Cl (ix2 (i 0 : Fin 100000) (0 : Fin 1))) (i 1 : Fin 1)

/-- Read through the column view of the counts, that is the head of the sums and the counts. -/
theorem arrayHead_column (P : Params) (S : S100000x128.Idx → EReal) (Cn : S100000.Idx → EReal)
    (h : S100000.ShapeCasts S100000x1) :
    arrayHead P S (shapeCast S100000x1 Cn h) = head P S Cn := by
  funext i
  exact congrArg (fun z => headRow P (fun k => S (ix2 (i 0 : Fin 100000) k)) z (i 1 : Fin 1))
    (shapeCast_a_a1_apply Cn h (i 0 : Fin 100000) (0 : Fin 1))

/-- THE TILING, for any arrays: the head of the rows of block `t` of the sums and of the counts is block `t` of the
    head of all rows — row `p` of the block is row `2000 t + p` of the arrays, in all three windows. -/
theorem block_of_head (P : Params) (S : S100000x128.Idx → EReal) (Cl : S100000x1.Idx → EReal) (t : Fin cfg0.N) :
    (cfg0.win 10).cut (grid0.coords t)
        (blockHead P (((cfg0.win 0).blk t).view.read (Elt Ideal) S) (((cfg0.win 1).blk t).view.read (Elt Ideal) Cl))
      = ((cfg0.win 10).blk t).view.read (Elt Ideal) (arrayHead P S Cl) := by
  obtain ⟨e0a, e0b, e1a, e1b, e2a, e2b, e3a, e3b, e4a, e4b, e5a, e5b, e6a, e6b, e7a, e7b, e8a, e8b, e9a, e9b, e10a, e10b⟩ := idx_facts t
  have hN : cfg0.N = 50 := N_0
  have ht := t.isLt
  funext y
  have hp : (y 0).val < 2000 := (y 0).isLt
  have hr : t.val * 2000 + (y 0).val < 100000 := by omega
  have hemb : ((cfg0.win 10).blk t).view.emb y
      = (ix2 (⟨t.val * 2000 + (y 0).val, hr⟩ : Fin 100000) (y 1 : Fin 1) : S100000x1.Idx) := by
    funext a
    apply Fin.ext
    match a with
    | ⟨0, _⟩ =>
      show win0_10.index t (0 : Fin 2) * 2000 + 1 * (y 0).val = t.val * 2000 + (y 0).val
      rw [e10a]; omega
    | ⟨1, _⟩ =>
      show win0_10.index t (1 : Fin 2) * 1 + 1 * (y 1).val = (y 1).val
      rw [e10b]; omega
  rw [View.read_apply, hemb]
  show headRow P (fun k => ((cfg0.win 0).blk t).view.read (Elt Ideal) S (ix2 (y 0 : Fin 2000) k))
      (((cfg0.win 1).blk t).view.read (Elt Ideal) Cl (ix2 (y 0 : Fin 2000) (0 : Fin 1))) (y 1 : Fin 1)
    = headRow P (fun k => S (ix2 (⟨t.val * 2000 + (y 0).val, hr⟩ : Fin 100000) k))
      (Cl (ix2 (⟨t.val * 2000 + (y 0).val, hr⟩ : Fin 100000) (0 : Fin 1))) (y 1 : Fin 1)
  rw [blk1_read Cl t (y 0) ⟨t.val * 2000 + (y 0).val, hr⟩ rfl]
  exact congrArg (fun f => headRow P f (Cl (ix2 (⟨t.val * 2000 + (y 0).val, hr⟩ : Fin 100000) (0 : Fin 1))) (y 1 : Fin 1))
    (funext fun k => blk0_read S t (y 0) k ⟨t.val * 2000 + (y 0).val, hr⟩ rfl)

/-- WHAT POINT `t` WRITES BACK is block `t` of the result. -/
theorem flushed_eq (c : Dev nD) (t : Fin cfg0.N) :
    (dats m 0 c).flushed 10 t = ((cfg0.win 10).blk t).view.read (Elt Ideal) (result m c) := by
  rw [Cert.KernelIdeal.Value.flushed10]
  unfold out0_10
  rw [View.canon_unit_zero hz]
  simp only [View.ld_unit_zero (S := S2000x128) hz, View.ld_unit_zero (S := S2000x1) hz, View.ld_unit_zero (S := S256x128) hz,
    View.ld_unit_zero (S := S1x256) hz, View.ld_unit_zero (S := S128x256) hz, View.ld_unit_zero (S := S1x128) hz,
    View.ld_unit_zero (S := S64x128) hz, View.ld_unit_zero (S := S1x64) hz, View.ld_unit_zero (S := S1x1) hz]
  rw [body_eq (iblk m c 0 t) (iblk m c 1 t) (iblk m c 2 t) (iblk m c 3 t) (iblk m c 4 t) (iblk m c 5 t) (iblk m c 6 t)
    (iblk m c 7 t) (iblk m c 8 t) (iblk m c 9 t), params_eq m c t, iblk0_eq m c t, iblk1_eq m c t,
    block_of_head (params m c) (sums m c) (column m c) t]
  unfold column result
  rw [arrayHead_column]

/-- An index of the result is in point `t`'s block iff its row is among the point's 2000 rows. -/
theorem mem_blk (t : Fin cfg0.N) (i : S100000x1.Idx) :
    i ∈ ((cfg0.win 10).blk t).view.set ↔ ∀ a : Fin 2, win0_10.index t a * S2000x1.size a ≤ (i a).val
      ∧ (i a).val < win0_10.index t a * S2000x1.size a + S2000x1.size a := by
  show i ∈ ((View.whole main_v44).slice (win0_10.rect t)).set ↔ _
  rw [View.set_slice_whole, Rect.mem_set_unit]
  exact Iff.rfl

/-- The 50 blocks tile the result: row `r` is in the block of point `r / 2000`. -/
theorem cover (i : S100000x1.Idx) :
    ∃ t : Fin cfg0.N, (cfg0.win 10).flush t = true ∧ i ∈ ((cfg0.win 10).blk t).view.set := by
  have hi0 : (i 0).val < 100000 := (i 0).isLt
  have hi1 : (i 1).val < 1 := (i 1).isLt
  have hN : cfg0.N = 50 := N_0
  have hlt : (i 0).val / 2000 < cfg0.N := by rw [hN]; omega
  refine ⟨⟨(i 0).val / 2000, hlt⟩, flush0_10 _, ?_⟩
  rw [mem_blk]
  have hf := idx_facts ⟨(i 0).val / 2000, hlt⟩
  have e10a := hf.2.2.2.2.2.2.2.2.2.2.2.2.2.2.2.2.2.2.2.2.1
  have e10b := hf.2.2.2.2.2.2.2.2.2.2.2.2.2.2.2.2.2.2.2.2.2
  intro a
  match a with
  | ⟨0, _⟩ =>
    show win0_10.index ⟨(i 0).val / 2000, hlt⟩ (0 : Fin 2) * 2000 ≤ (i 0).val
      ∧ (i 0).val < win0_10.index ⟨(i 0).val / 2000, hlt⟩ (0 : Fin 2) * 2000 + 2000
    rw [e10a]
    show (i 0).val / 2000 * 2000 ≤ (i 0).val ∧ (i 0).val < (i 0).val / 2000 * 2000 + 2000
    omega
  | ⟨1, _⟩ =>
    show win0_10.index ⟨(i 0).val / 2000, hlt⟩ (1 : Fin 2) * 1 ≤ (i 1).val
      ∧ (i 1).val < win0_10.index ⟨(i 0).val / 2000, hlt⟩ (1 : Fin 2) * 1 + 1
    rw [e10b]
    omega

/-- THE RESULT ARRAY after the run is the head of every row. -/
theorem final (c : Dev nD) : (dats m 0 c).arrAt 10 cfg0.N = result m c :=
  (dats m 0 c).arrAt_eq_of_cover 10 (result m c) (fun t _ => flushed_eq m c t) (cover)

/-- The kernel's run, read: the result array at the head of every row, the arguments unchanged. -/
theorem run : θ_run defs (onTc (τ := τ) (main (F := Ideal))) ⟨m, fun _ => 0, ρ⟩ fun r => ∀ c : Dev nD,
      r.2.mem ((c : Thread nD τ).loc main_v44) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.Gcn.Array

end
-- ==== Proof.RefRow.lean ====
import proofs.«178483_j20547123544817_1_alg».proof.Proof.RefRead
import proofs.«178483_j20547123544817_1_alg».proof.Proof.Mlp

/-!
The reference's head, read row by row.

After the two scatter-adds that aggregate the messages — the feature sums `s [100000, 128]` and the in-degree counts
`cnt [100000]`, kept whole here — the reference divides each row of `s` by its count floored at one, and applies the
four dense layers as whole-array matrix products `h · Wᵀ` (the weight matrix transposed on the fly), a bias repeated
down the rows, and a pointwise maximum with zero. Read at row `r`, each stage is the corresponding stage of the head of
that row: the product's entry `(r, j)` is `∑ k, h (r, k) · W (j, k)`, the bias entry is `b j`.
-/

noncomputable section

namespace Cert.Gcn.Ref

open Idealize.ShloMosaic Idealize.ShloMosaic.ValueIdx Cert.ReferenceIdeal Cert.ReferenceIdeal.ReadP Cert.Gcn

variable (x0 : (⟨S100000x128, .f32⟩ : BufTy).Contents (Elt Ideal)) (x1 : (⟨S2x800000, .i32⟩ : BufTy).Contents (Elt Ideal))
  (x2 : (⟨S256x128, .f32⟩ : BufTy).Contents (Elt Ideal)) (x3 : (⟨S256, .f32⟩ : BufTy).Contents (Elt Ideal))
  (x4 : (⟨S128x256, .f32⟩ : BufTy).Contents (Elt Ideal)) (x5 : (⟨S128, .f32⟩ : BufTy).Contents (Elt Ideal))
  (x6 : (⟨S64x128, .f32⟩ : BufTy).Contents (Elt Ideal)) (x7 : (⟨S64, .f32⟩ : BufTy).Contents (Elt Ideal))
  (x8 : (⟨S1x64, .f32⟩ : BufTy).Contents (Elt Ideal)) (x9 : (⟨S1, .f32⟩ : BufTy).Contents (Elt Ideal))

/-- Row `r` of the aggregated feature sums. -/
abbrev srow (r : Fin 100000) : Fin 128 → EReal := fun k => val_main_v35 (F := Ideal) x0 x1 (ix2 r k)

/-- Entry `r` of the in-degree counts. -/
abbrev cnt (r : Fin 100000) : EReal := val_main_v38 (F := Ideal) x1 (ix1 r)

/-- The quotient by the floored count, at `(r, k)`: the mean of row `r`. -/
theorem mean_apply (r : Fin 100000) (k : Fin 128) :
    val_main_v43 (F := Ideal) x0 x1 (ix2 r k) = mean (srow x0 x1 r) (cnt x1 r) k := by
  have e : idx_main_v41 (idx_main_v42 (ix2 r k : S100000x128.Idx)) = ix1 r :=
    funext fun a => Fin.ext (by match a with | ⟨0, _⟩ => rfl)
  rw [val_main_v43_apply, val_main_v42_apply, val_main_v41_apply, val_main_v40_apply, val_main_v39_apply,
    val_main_cst_9_apply, e]
  rfl

/-- The first product, bias and rectifier, at `(r, j)`. -/
theorem hidden1_apply (r : Fin 100000) (j : Fin 256) :
    val_main_v49 (F := Ideal) x0 x1 x2 x3 (ix2 r j)
      = hidden1 (paramsOfArgs x2 x3 x4 x5 x6 x7 x8 x9) (srow x0 x1 r) (cnt x1 r) j := by
  have el : ∀ k : Fin 128, lidx_main_v45 (ix2 r j : S100000x256.Idx) k = ix2 r k := fun k =>
    funext fun a => Fin.ext (by match a with | ⟨0, _⟩ => rfl | ⟨1, _⟩ => rfl)
  have er : ∀ k : Fin 128, idx_main_v44 (ridx_main_v45 (ix2 r j : S100000x256.Idx) k) = ix2 j k := fun k =>
    funext fun a => Fin.ext (by match a with | ⟨0, _⟩ => rfl | ⟨1, _⟩ => rfl)
  have eb : idx_main_v46 (idx_main_v47 (ix2 r j : S100000x256.Idx)) = ix1 j :=
    funext fun a => Fin.ext (by match a with | ⟨0, _⟩ => rfl)
  rw [val_main_v49_apply, val_main_v48_apply, val_main_v45_apply, val_main_v47_apply, val_main_v46_apply,
    val_main_call1_v0_apply, val_main_call1_cst_apply, eb]
  simp only [val_main_v44_apply, el, er, mean_apply]
  rfl

/-- The second product, bias and rectifier, at `(r, j)`. -/
theorem hidden2_apply (r : Fin 100000) (j : Fin 128) :
    val_main_v55 (F := Ideal) x0 x1 x2 x3 x4 x5 (ix2 r j)
      = hidden2 (paramsOfArgs x2 x3 x4 x5 x6 x7 x8 x9) (srow x0 x1 r) (cnt x1 r) j := by
  have el : ∀ k : Fin 256, lidx_main_v51 (ix2 r j : S100000x128.Idx) k = ix2 r k := fun k =>
    funext fun a => Fin.ext (by match a with | ⟨0, _⟩ => rfl | ⟨1, _⟩ => rfl)
  have er : ∀ k : Fin 256, idx_main_v50 (ridx_main_v51 (ix2 r j : S100000x128.Idx) k) = ix2 j k := fun k =>
    funext fun a => Fin.ext (by match a with | ⟨0, _⟩ => rfl | ⟨1, _⟩ => rfl)
  have eb : idx_main_v52 (idx_main_v53 (ix2 r j : S100000x128.Idx)) = ix1 j :=
    funext fun a => Fin.ext (by match a with | ⟨0, _⟩ => rfl)
  rw [val_main_v55_apply, val_main_v54_apply, val_main_v51_apply, val_main_v53_apply, val_main_v52_apply,
    val_main_call2_v0_apply, val_main_call2_cst_apply, eb]
  simp only [val_main_v50_apply, el, er, hidden1_apply x0 x1 x2 x3 x4 x5 x6 x7 x8 x9]
  rfl

/-- The third product, bias and rectifier, at `(r, j)`. -/
theorem hidden3_apply (r : Fin 100000) (j : Fin 64) :
    val_main_v61 (F := Ideal) x0 x1 x2 x3 x4 x5 x6 x7 (ix2 r j)
      = hidden3 (paramsOfArgs x2 x3 x4 x5 x6 x7 x8 x9) (srow x0 x1 r) (cnt x1 r) j := by
  have el : ∀ k : Fin 128, lidx_main_v57 (ix2 r j : S100000x64.Idx) k = ix2 r k := fun k =>
    funext fun a => Fin.ext (by match a with | ⟨0, _⟩ => rfl | ⟨1, _⟩ => rfl)
  have er : ∀ k : Fin 128, idx_main_v56 (ridx_main_v57 (ix2 r j : S100000x64.Idx) k) = ix2 j k := fun k =>
    funext fun a => Fin.ext (by match a with | ⟨0, _⟩ => rfl | ⟨1, _⟩ => rfl)
  have eb : idx_main_v58 (idx_main_v59 (ix2 r j : S100000x64.Idx)) = ix1 j :=
    funext fun a => Fin.ext (by match a with | ⟨0, _⟩ => rfl)
  rw [val_main_v61_apply, val_main_v60_apply, val_main_v57_apply, val_main_v59_apply, val_main_v58_apply,
    val_main_call3_v0_apply, val_main_call3_cst_apply, eb]
  simp only [val_main_v56_apply, el, er, hidden2_apply x0 x1 x2 x3 x4 x5 x6 x7 x8 x9]
  rfl

/-- The last product and bias, at `(r, u)`: the head's output for row `r`. -/
theorem out_apply (r : Fin 100000) (u : Fin 1) :
    val_main_v66 (F := Ideal) x0 x1 x2 x3 x4 x5 x6 x7 x8 x9 (ix2 r u)
      = headRow (paramsOfArgs x2 x3 x4 x5 x6 x7 x8 x9) (srow x0 x1 r) (cnt x1 r) u := by
  have el : ∀ k : Fin 64, lidx_main_v63 (ix2 r u : S100000x1.Idx) k = ix2 r k := fun k =>
    funext fun a => Fin.ext (by match a with | ⟨0, _⟩ => rfl | ⟨1, _⟩ => rfl)
  have er : ∀ k : Fin 64, idx_main_v62 (ridx_main_v63 (ix2 r u : S100000x1.Idx) k) = ix2 u k := fun k =>
    funext fun a => Fin.ext (by match a with | ⟨0, _⟩ => rfl | ⟨1, _⟩ => rfl)
  have eb : idx_main_v64 (idx_main_v65 (ix2 r u : S100000x1.Idx)) = ix1 u :=
    funext fun a => Fin.ext (by
      match a with
      | ⟨0, _⟩ =>
        show (0 : ℕ) = u.val
        have := u.isLt
        omega)
  rw [val_main_v66_apply, val_main_v63_apply, val_main_v65_apply, val_main_v64_apply, eb]
  simp only [val_main_v62_apply, el, er, hidden3_apply x0 x1 x2 x3 x4 x5 x6 x7 x8 x9]
  rfl

/-- The reference's result array is the head of its feature sums and counts, row by row. -/
theorem result_eq_head :
    val_main_v66 (F := Ideal) x0 x1 x2 x3 x4 x5 x6 x7 x8 x9
      = head (paramsOfArgs x2 x3 x4 x5 x6 x7 x8 x9) (val_main_v35 (F := Ideal) x0 x1) (val_main_v38 (F := Ideal) x1) := by
  funext i
  obtain ⟨r, u, rfl⟩ : ∃ (r : Fin 100000) (u : Fin 1), i = ix2 r u := ⟨i 0, i 1, eq_ix2 i⟩
  exact out_apply x0 x1 x2 x3 x4 x5 x6 x7 x8 x9 r u

end Cert.Gcn.Ref

end
-- ==== Proof.lean ====
/-
  Equivalence, on the extended reals, of a graph-network layer with a node head computed two ways.

  Both programs first pass messages along the edges (self loops added): each source row is scaled by the reciprocal of
  its out-degree, gathered per edge, and summed into its target node, giving feature sums `s [100000, 128]` and in-degree
  counts `cnt [100000]`. This part is the same sequence of host operations in both programs. Then every node's row goes
  through the head: the mean `s / max cnt 1`, three dense layers with a rectifier (128 → 256 → 128 → 64), and a last
  dense layer 64 → 1.

  The kernel computes the head in a pipelined region over 50 blocks of 2000 rows, each dense layer a matrix product
  into a zero accumulator with the weights transposed in place, the operands passing through a narrower float format
  (the identity on the extended reals); the reference computes it on all rows at once with whole-array products.
  Row by row both are the same expression, term for term (`Cert.Gcn.headRow`), so no finiteness of the inputs is needed:

  * `Cert.Gcn.Array.run`: the kernel's result array ends as `head params sums counts` — the body's stored block is the
    head of the block's rows (`Cert.Gcn.body_apply`), the blocks are the 2000-row slices of the operands
    (`iblk0_apply`, `iblk1_apply`), and the 50 blocks tile the result (`cover`);
  * `Cert.Gcn.Ref.result_eq_head`: the reference's result array is the same `head` of its own sums and counts;
  * the sums and counts are one function of the arguments in both programs (`Cert.Gcn.Prefix.V_sums`, `V_counts`).

  The frames of the two kernel programs are the generated ones; the reference's frame is its run with the result
  dropped. The ideal pass rewrote nothing, so the idealization claim is trivial.
-/
import proofs.«178483_j20547123544817_1_alg».proof.Defs
import proofs.«178483_j20547123544817_1_alg».proof.Proof.Gen.Kernel
import proofs.«178483_j20547123544817_1_alg».proof.Proof.Gen.Kernel.Frame
import proofs.«178483_j20547123544817_1_alg».proof.Proof.Gen.KernelIdeal
import proofs.«178483_j20547123544817_1_alg».proof.Proof.Gen.KernelIdeal.Frame
import proofs.«178483_j20547123544817_1_alg».proof.Proof.Gen.ReferenceIdeal
import proofs.«178483_j20547123544817_1_alg».proof.Proof.Gen.Pre_finite_inputs
import proofs.«178483_j20547123544817_1_alg».proof.Proof.KernelArray
import proofs.«178483_j20547123544817_1_alg».proof.Proof.RefRow

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run, read back, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments, both programs end with the head of every row of the same sums and
    counts under the same parameters. -/
theorem algebraic : Cert.algebraic_KernelIdeal_ReferenceIdeal := by
  intro m ρ m' ρ' _ hagree
  refine ⟨fun c => Cert.Gcn.Array.result m c, Cert.Gcn.Array.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.ReadP.val_main_v66_eq, Cert.Gcn.Ref.result_eq_head, h0, h1, h2, h3, h4, h5, h6, h7, h8, h9]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
